-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩

abbrev nBuf : Space → Nat
  | .hbm => 63
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S64x64, .f32⟩
  | .hbm, ⟨41, _⟩ => ⟨S64x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S64x64, .f32⟩
  | .hbm, ⟨60, _⟩ => ⟨S64x64, .f32⟩
  | .hbm, ⟨61, _⟩ => ⟨S1x64, .f32⟩
  | .hbm, ⟨62, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S64x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«177526_j64828236366583_1_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.LibSageLayer.lean ====
/-
  One layer of a mean-aggregating graph network, read at one index on the extended reals.

  A node's new feature vector is relu(mean · Wl + h · Wr + b): `mean` is the sum of the features of the node's
  in-neighbours divided by max(count, 1), `h` the node's own features, `b` a bias row.  Two spellings of the
  layer meet here.  One scales the neighbour sums by the reciprocal 1 / max(count, 1) and adds the two products
  before the bias; the other divides the sums by max(count, 1) and adds the bias between the products.  The
  divisor is at least 1, so it is never zero and the product with the reciprocal is the quotient on every
  extended real; addition of extended reals is commutative and associative, so the three summands may be
  added in either order.  No entry has to be finite for either step.
-/
import Idealize.ShloMosaic.PureOps.Ideal.Laws
import Idealize.ShloMosaic.PureOps.IdealRules
import Idealize.ShloMosaic.Lib.ValueIdx
import Idealize.ShloMosaic.Lib.ValueLayout
import Idealize.ShloMosaic.Lib.IdealHost
import Idealize.ShloMosaic.Lib.Pipeline.Value
import proofs.«177526_j64828236366583_1_alg».proof.Proof.LibRowOps
import proofs.«177526_j64828236366583_1_alg».proof.Proof.LibDense

noncomputable section

namespace Cert.Sage

open Idealize.ShloMosaic Idealize.ShloMosaic.ValueIdx Cert.RowOps Cert.Dense

/-- The value of the f32 word of 1.0. -/
abbrev one : EReal := Ideal.ofBits .f32 0x3F800000#32

theorem one_eq : one = 1 := IdealRules.sign_bit.ideal_onePat .f32

/-! ## The layer as one function of whole arrays -/

/-- relu(A · Wl + X · Wr + b) at (r, c): row r of `A` and of `X`, column c of the weights, entry c of the one-row bias. -/
def layer {M K N : Nat} (A X : FVec Ideal ⟨2, ![M, K]⟩ .f32) (Wl Wr : FVec Ideal ⟨2, ![K, N]⟩ .f32)
    (b : FVec Ideal ⟨2, ![1, N]⟩ .f32) : FVec Ideal ⟨2, ![M, N]⟩ .f32 :=
  fun i => max ((∑ k : Fin K, A (ix2 (i 0) k) * Wl (ix2 k (i 1))) + (∑ k : Fin K, X (ix2 (i 0) k) * Wr (ix2 k (i 1)))
    + b (ix2 (0 : Fin 1) (i 1))) z

theorem layer_apply {M K N : Nat} (A X : FVec Ideal ⟨2, ![M, K]⟩ .f32) (Wl Wr : FVec Ideal ⟨2, ![K, N]⟩ .f32)
    (b : FVec Ideal ⟨2, ![1, N]⟩ .f32) (r : Fin M) (c : Fin N) :
    layer A X Wl Wr b (ix2 r c)
      = max ((∑ k : Fin K, A (ix2 r k) * Wl (ix2 k c)) + (∑ k : Fin K, X (ix2 r k) * Wr (ix2 k c)) + b (ix2 (0 : Fin 1) c)) z := rfl

/-! ## One block of rows (a matmul into a zero accumulator twice, a one-row bias repeated, a maximum with a splat zero) -/

section Block

variable {M K N : Nat} {d : DotDims ⟨2, ![M, K]⟩ ⟨2, ![K, N]⟩ ⟨2, ![M, N]⟩}

theorem blockLayer_apply (hd : IsPlain d) {φ₁ φ₂ : FTy} (a x : FVec Ideal ⟨2, ![M, K]⟩ φ₁) (wl wr : FVec Ideal ⟨2, ![K, N]⟩ φ₂)
    (b : FVec Ideal ⟨2, ![1, N]⟩ .f32) (hb : (⟨2, ![1, N]⟩ : Shape).Broadcasts ⟨2, ![M, N]⟩) (r : Fin M) (c : Fin N) :
    maximumf (addf (addf (matmul d none a wl (constant ⟨2, ![M, N]⟩ .f32 0x00000000#32))
          (matmul d none x wr (constant ⟨2, ![M, N]⟩ .f32 0x00000000#32)))
        (broadcastTo ⟨2, ![M, N]⟩ b hb))
        (broadcast ⟨2, ![M, N]⟩ (Scalar.ofBits (F := Ideal) .f32 0x00000000#32)) (ix2 r c)
      = max ((∑ k : Fin K, a (ix2 r k) * wl (ix2 k c)) + (∑ k : Fin K, x (ix2 r k) * wr (ix2 k c)) + b (ix2 (0 : Fin 1) c)) z := by
  rw [maximumf_apply, addf_apply, addf_apply, broadcastTo_1b_ab_apply, broadcast_apply]
  exact congrArg₂ (fun s u => max (s + u + b (ix2 (0 : Fin 1) c)) z) (matmul_zero_apply hd none a wl r c)
    (matmul_zero_apply hd none x wr r c)

end Block

/-! ## A per-row column repeated along the rows -/

section Column

variable {α : Type} {a b : Nat}

/-- A length-a vector broadcast to an [a, 1] column and then to [a, b] reads, at (p, c), the vector at p. -/
theorem hostColumn_apply (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (c : Fin b) :
    broadcastInDim ⟨2, ![a, b]⟩ ![0, 1] h2 (broadcastInDim ⟨2, ![a, 1]⟩ ![0] h1 v) (ix2 p c) = v (ix1 p) := by
  rw [broadcastInDim_apply ![0, 1] h2 _ (ix2 p c) (ix2 p (0 : Fin 1)) (fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

end Column

/-! ## The mean, two ways -/

/-- A product with the reciprocal of max(n, 1) is the quotient by max(n, 1): the divisor is at least 1, so not zero. -/
theorem mul_recip_max (x n : EReal) : x * Ideal.div one (max n one) = Ideal.div x (max n one) := by
  rw [one_eq]
  exact Idealize.ShloMosaic.Ideal.mul_one_div (lt_of_lt_of_le zero_lt_one (le_max_right n 1)).ne'

section Mean

variable {a b : Nat}

/-- Sums scaled by the per-row reciprocal of max(count, 1) are the sums divided by max(count, 1). -/
theorem mean_eq (S : FVec Ideal ⟨2, ![a, b]⟩ .f32) (cnt : FVec Ideal ⟨1, ![a]⟩ .f32)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) :
    mulf S (broadcastInDim ⟨2, ![a, b]⟩ ![0, 1] h2 (broadcastInDim ⟨2, ![a, 1]⟩ ![0] h1
        (Host.divf (broadcastInDim ⟨1, ![a]⟩ ![] h0 (constant (F := Ideal) ⟨0, ![]⟩ .f32 0x3F800000#32))
          (maximumf cnt (broadcastInDim ⟨1, ![a]⟩ ![] h0 (constant (F := Ideal) ⟨0, ![]⟩ .f32 0x3F800000#32))))))
      = Host.divf S (broadcastInDim ⟨2, ![a, b]⟩ ![0, 1] h2 (broadcastInDim ⟨2, ![a, 1]⟩ ![0] h1
          (maximumf cnt (broadcastInDim ⟨1, ![a]⟩ ![] h0 (constant (F := Ideal) ⟨0, ![]⟩ .f32 0x3F800000#32))))) := by
  funext i
  obtain ⟨p, q, rfl⟩ : ∃ (p : Fin a) (q : Fin b), i = ix2 p q := ⟨i 0, i 1, eq_ix2 i⟩
  rw [mulf_apply, hostDivf_apply, hostColumn_apply, hostColumn_apply, hostDivf_apply, maximumf_apply,
    broadcastInDim_scalar_apply, constant_apply]
  exact mul_recip_max _ _

end Mean

/-! ## The layer over whole arrays in the host's spelling -/

section Host

variable {M K N : Nat} {d : DotDims ⟨2, ![M, K]⟩ ⟨2, ![K, N]⟩ ⟨2, ![M, N]⟩}

/-- mean · Wl, plus the bias on every row, plus X · Wr, clipped at zero, is `layer` with the bias viewed as one row. -/
theorem hostLayer_eq (hd : IsPlain d) (Mn X : FVec Ideal ⟨2, ![M, K]⟩ .f32) (Wl Wr : FVec Ideal ⟨2, ![K, N]⟩ .f32)
    (B : FVec Ideal ⟨1, ![N]⟩ .f32)
    (hs : (⟨1, ![N]⟩ : Shape).ShapeCasts ⟨2, ![1, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    layer Mn X Wl Wr (shapeCast ⟨2, ![1, N]⟩ B hs)
      = maximumf (addf (addf (Host.dotGeneral d none Mn Wl)
            (broadcastInDim ⟨2, ![M, N]⟩ ![0, 1] h2 (broadcastInDim ⟨2, ![1, N]⟩ ![1] h1 B)))
          (Host.dotGeneral d none X Wr))
        (broadcastInDim ⟨2, ![M, N]⟩ ![] h0 (constant (F := Ideal) ⟨0, ![]⟩ .f32 0x00000000#32)) := by
  funext i
  obtain ⟨r, c, rfl⟩ : ∃ (r : Fin M) (c : Fin N), i = ix2 r c := ⟨i 0, i 1, eq_ix2 i⟩
  rw [layer_apply, maximumf_apply, addf_apply, addf_apply, hostRowBias_apply, broadcastInDim_scalar_apply, constant_apply,
    show Host.dotGeneral d none Mn Wl (ix2 r c) = _ from hostDot_apply hd none .single Mn Wl r c,
    show Host.dotGeneral d none X Wr (ix2 r c) = _ from hostDot_apply hd none .single X Wr r c,
    shapeCast_a_1a_apply]
  exact congrArg (fun s => max s z) (add_right_comm _ _ _)

end Host

end Cert.Sage

end
-- ==== Proof.KernelIdealRegion.lean ====
/-
  What each of the two pipelined regions leaves in its output array.

  Each region runs the same body at twenty grid points.  Point t loads rows 5000·t … 5000·t + 4999 of two
  [100000, 64] arrays (the neighbour means and the nodes' own features), the whole of two [64, 64] weights and the
  one-row bias, and stores relu(mean · Wl + own · Wr + bias) into rows 5000·t … 5000·t + 4999 of the output.  An
  entry of the block depends on its own row of the two row arrays only, so the block is the restriction to its
  rows of ONE function of the whole arrays (`Cert.Sage.layer`), and the twenty blocks tile the output: after the
  region the output array is that function of the arrays the region found.
-/
import proofs.«177526_j64828236366583_1_alg».proof.Proof.Gen.KernelIdeal.Frame
import proofs.«177526_j64828236366583_1_alg».proof.Proof.LibSageLayer
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

theorem hz : (![0, 0] : Fin 2 → Nat) = fun _ => 0 := funext fun a => by fin_cases a <;> rfl

/-- The body's matrix products contract the left operand's columns with the right operand's rows. -/
theorem plain : Cert.RowOps.IsPlain dot_S5000x64_S64x64_S5000x64_1_0_0_1_n_n := ⟨rfl, rfl, rfl, rfl, rfl, rfl⟩

/-! ## The body's stored value at one index -/

theorem pay0_apply (x0 x1 : Vec Ideal S5000x64 .f32) (x2 x3 : Vec Ideal S64x64 .f32) (x4 : Vec Ideal S1x64 .f32)
    (p : Fin 5000) (q : Fin 64) :
    k0_pay1 x0 x1 x2 x3 x4 (ix2 p q)
      = max ((∑ k : Fin 64, x0 (ix2 p k) * x2 (ix2 k q)) + (∑ k : Fin 64, x1 (ix2 p k) * x3 (ix2 k q)) + x4 (ix2 (0 : Fin 1) q))
          Cert.Dense.z := by
  unfold k0_pay1
  simp only [shapeCast_self]
  exact Cert.Sage.blockLayer_apply plain _ _ _ _ x4 broadcasts_S1x64_S5000x64 p q

theorem pay1_apply (x0 x1 : Vec Ideal S5000x64 .f32) (x2 x3 : Vec Ideal S64x64 .f32) (x4 : Vec Ideal S1x64 .f32)
    (p : Fin 5000) (q : Fin 64) :
    k1_pay1 x0 x1 x2 x3 x4 (ix2 p q)
      = max ((∑ k : Fin 64, x0 (ix2 p k) * x2 (ix2 k q)) + (∑ k : Fin 64, x1 (ix2 p k) * x3 (ix2 k q)) + x4 (ix2 (0 : Fin 1) q))
          Cert.Dense.z := by
  unfold k1_pay1
  simp only [shapeCast_self]
  exact Cert.Sage.blockLayer_apply plain _ _ _ _ x4 broadcasts_S1x64_S5000x64 p q

/-! ## Region 0: the blocks each point reads and writes -/

section Region0

variable (V : (c : Dev nD) → (b : Ref sig .tc) → Buf (Elt Ideal) ((c : Thread nD τ).loc b))

/-- The printed index maps over the grid: the row windows are at block t of the rows, the weights and the bias at their one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the first row window's block at point t is row 5000·t + p of its array. -/
theorem rows0_0 (c : Dev nD) (t : Fin cfg0.N) (p : Fin 5000) (k : Fin 64) (i : Fin 100000) (hi : i.val = t.val * 5000 + p.val) :
    (iblk0 V c 0 t : Vec Ideal S5000x64 .f32) (ix2 p k) = (V c main_v24 : S100000x64.Idx → Ideal .f32) (ix2 i k) := by
  obtain ⟨e00, e01, -⟩ := idx0 t
  show V c main_v24 (((cfg0.win 0).blk t).view.emb (ix2 p k)) = _
  refine congrArg (V c main_v24) (funext fun a => Fin.ext ?_)
  match a with
  | ⟨0, _⟩ => show win0_0.index t (0 : Fin 2) * 5000 + 1 * p.val = i.val; omega
  | ⟨1, _⟩ => show win0_0.index t (1 : Fin 2) * 64 + 1 * k.val = k.val; omega

/-- Row p of the second row window's block at point t is row 5000·t + p of its array. -/
theorem rows0_1 (c : Dev nD) (t : Fin cfg0.N) (p : Fin 5000) (k : Fin 64) (i : Fin 100000) (hi : i.val = t.val * 5000 + p.val) :
    (iblk0 V c 1 t : Vec Ideal S5000x64 .f32) (ix2 p k) = (V c main_arg0 : S100000x64.Idx → Ideal .f32) (ix2 i k) := by
  obtain ⟨-, -, e10, e11, -⟩ := idx0 t
  show V c main_arg0 (((cfg0.win 1).blk t).view.emb (ix2 p k)) = _
  refine congrArg (V c main_arg0) (funext fun a => Fin.ext ?_)
  match a with
  | ⟨0, _⟩ => show win0_1.index t (0 : Fin 2) * 5000 + 1 * p.val = i.val; omega
  | ⟨1, _⟩ => show win0_1.index t (1 : Fin 2) * 64 + 1 * k.val = k.val; omega

/-- The first weight's one block is the whole weight. -/
theorem whole0_2 (c : Dev nD) (t : Fin cfg0.N) (y : S64x64.Idx) :
    (iblk0 V c 2 t : Vec Ideal S64x64 .f32) y = (V c main_v25 : S64x64.Idx → Ideal .f32) y := by
  obtain ⟨-, -, -, -, e20, e21, -⟩ := idx0 t
  show V c main_v25 (((cfg0.win 2).blk t).view.emb y) = _
  refine congrArg (V c main_v25) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The second weight's one block is the whole weight. -/
theorem whole0_3 (c : Dev nD) (t : Fin cfg0.N) (y : S64x64.Idx) :
    (iblk0 V c 3 t : Vec Ideal S64x64 .f32) y = (V c main_v26 : S64x64.Idx → Ideal .f32) y := by
  obtain ⟨-, -, -, -, -, -, e30, e31, -⟩ := idx0 t
  show V c main_v26 (((cfg0.win 3).blk t).view.emb y) = _
  refine congrArg (V c main_v26) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The bias row's one block is the whole row. -/
theorem whole0_4 (c : Dev nD) (t : Fin cfg0.N) (y : S1x64.Idx) :
    (iblk0 V c 4 t : Vec Ideal S1x64 .f32) y = (V c main_v27 : S1x64.Idx → Ideal .f32) y := by
  obtain ⟨-, -, -, -, -, -, -, -, e40, e41, -⟩ := idx0 t
  show V c main_v27 (((cfg0.win 4).blk t).view.emb y) = _
  refine congrArg (V c main_v27) (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- The layer of the arrays the region finds. -/
abbrev result0 (c : Dev nD) : S100000x64.Idx → Ideal .f32 :=
  Cert.Sage.layer (V c main_v24 : S100000x64.Idx → Ideal .f32) (V c main_arg0 : S100000x64.Idx → Ideal .f32)
    (V c main_v25 : S64x64.Idx → Ideal .f32) (V c main_v26 : S64x64.Idx → Ideal .f32) (V c main_v27 : S1x64.Idx → Ideal .f32)

/-- What point t writes back is block t of the layer of the arrays the region finds. -/
theorem flushed0_eq (c : Dev nD) (t : Fin cfg0.N) :
    (dat0 V c).flushed 5 t = ((cfg0.win 5).blk t).view.read (Elt Ideal) (result0 V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  obtain ⟨-, -, -, -, -, -, -, -, -, -, e50, e51⟩ := idx0 t
  have hN : cfg0.N = 20 := N_0
  have ht : t.val < cfg0.N := t.isLt
  have hp : p.val < 5000 := p.isLt
  let i : Fin 100000 := ⟨t.val * 5000 + p.val, by omega⟩
  have hemb : ((cfg0.win 5).blk t).view.emb (ix2 p q) = (ix2 i q : S100000x64.Idx) := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  show k0_pay1 (iblk0 V c 0 t) (iblk0 V c 1 t) (iblk0 V c 2 t) (iblk0 V c 3 t) (iblk0 V c 4 t) (ix2 p q)
    = result0 V c (((cfg0.win 5).blk t).view.emb (ix2 p q))
  rw [hemb]
  show _ = Cert.Sage.layer _ _ _ _ _ (ix2 i q)
  rw [Cert.Sage.layer_apply, pay0_apply, whole0_4]
  refine congrArg₂ (fun s u => max (s + u + (V c main_v27 : S1x64.Idx → Ideal .f32) (ix2 (0 : Fin 1) q)) Cert.Dense.z) ?_ ?_
  · exact Finset.sum_congr rfl fun k _ => by rw [rows0_0 V c t p k i rfl, whole0_2]
  · exact Finset.sum_congr rfl fun k _ => by rw [rows0_1 V c t p k i rfl, whole0_3]

/-- An index of the output is in point t's block iff its row is among rows 5000·t … 5000·t + 4999. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v28).slice (win0_5.rect t)).set ↔ _
  rw [View.set_slice_whole, Rect.mem_set_unit]
  exact Iff.rfl

/-- After the region the output array holds the layer of the arrays the region found: the twenty blocks tile it. -/
theorem final0 (c : Dev nD) : (dat0 V c).arrAt 5 cfg0.N = result0 V c :=
  (dat0 V c).arrAt_eq_of_cover 5 (result0 V c) (fun t _ => flushed0_eq V c t) fun i => by
    have hN : cfg0.N = 20 := N_0
    have h0 : (i 0).val < 100000 := (i 0).isLt
    have h1 : (i 1).val < 64 := (i 1).isLt
    let t : Fin cfg0.N := ⟨(i 0).val / 5000, by omega⟩
    obtain ⟨-, -, -, -, -, -, -, -, -, -, e50, e51⟩ := idx0 t
    have ht : t.val = (i 0).val / 5000 := rfl
    refine ⟨t, flush0_5 t, ?_⟩
    rw [mem_blk0]
    intro a
    match a with
    | ⟨0, _⟩ => show win0_5.index t (0 : Fin 2) * 5000 ≤ (i 0).val ∧ (i 0).val < win0_5.index t (0 : Fin 2) * 5000 + 5000; omega
    | ⟨1, _⟩ => show win0_5.index t (1 : Fin 2) * 64 ≤ (i 1).val ∧ (i 1).val < win0_5.index t (1 : Fin 2) * 64 + 64; omega

end Region0

/-! ## Region 1: the blocks each point reads and writes -/

section Region1

variable (V : (c : Dev nD) → (b : Ref sig .tc) → Buf (Elt Ideal) ((c : Thread nD τ).loc b))

/-- The printed index maps over the grid: the row windows are at block t of the rows, the weights and the bias at their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the first row window's block at point t is row 5000·t + p of its array. -/
theorem rows1_0 (c : Dev nD) (t : Fin cfg1.N) (p : Fin 5000) (k : Fin 64) (i : Fin 100000) (hi : i.val = t.val * 5000 + p.val) :
    (iblk1 V c 0 t : Vec Ideal S5000x64 .f32) (ix2 p k) = (V c main_v40 : S100000x64.Idx → Ideal .f32) (ix2 i k) := by
  obtain ⟨e00, e01, -⟩ := idx1 t
  show V c main_v40 (((cfg1.win 0).blk t).view.emb (ix2 p k)) = _
  refine congrArg (V c main_v40) (funext fun a => Fin.ext ?_)
  match a with
  | ⟨0, _⟩ => show win1_0.index t (0 : Fin 2) * 5000 + 1 * p.val = i.val; omega
  | ⟨1, _⟩ => show win1_0.index t (1 : Fin 2) * 64 + 1 * k.val = k.val; omega

/-- Row p of the second row window's block at point t is row 5000·t + p of its array. -/
theorem rows1_1 (c : Dev nD) (t : Fin cfg1.N) (p : Fin 5000) (k : Fin 64) (i : Fin 100000) (hi : i.val = t.val * 5000 + p.val) :
    (iblk1 V c 1 t : Vec Ideal S5000x64 .f32) (ix2 p k) = (V c main_v28 : S100000x64.Idx → Ideal .f32) (ix2 i k) := by
  obtain ⟨-, -, e10, e11, -⟩ := idx1 t
  show V c main_v28 (((cfg1.win 1).blk t).view.emb (ix2 p k)) = _
  refine congrArg (V c main_v28) (funext fun a => Fin.ext ?_)
  match a with
  | ⟨0, _⟩ => show win1_1.index t (0 : Fin 2) * 5000 + 1 * p.val = i.val; omega
  | ⟨1, _⟩ => show win1_1.index t (1 : Fin 2) * 64 + 1 * k.val = k.val; omega

/-- The first weight's one block is the whole weight. -/
theorem whole1_2 (c : Dev nD) (t : Fin cfg1.N) (y : S64x64.Idx) :
    (iblk1 V c 2 t : Vec Ideal S64x64 .f32) y = (V c main_v41 : S64x64.Idx → Ideal .f32) y := by
  obtain ⟨-, -, -, -, e20, e21, -⟩ := idx1 t
  show V c main_v41 (((cfg1.win 2).blk t).view.emb y) = _
  refine congrArg (V c main_v41) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The second weight's one block is the whole weight. -/
theorem whole1_3 (c : Dev nD) (t : Fin cfg1.N) (y : S64x64.Idx) :
    (iblk1 V c 3 t : Vec Ideal S64x64 .f32) y = (V c main_v42 : S64x64.Idx → Ideal .f32) y := by
  obtain ⟨-, -, -, -, -, -, e30, e31, -⟩ := idx1 t
  show V c main_v42 (((cfg1.win 3).blk t).view.emb y) = _
  refine congrArg (V c main_v42) (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The bias row's one block is the whole row. -/
theorem whole1_4 (c : Dev nD) (t : Fin cfg1.N) (y : S1x64.Idx) :
    (iblk1 V c 4 t : Vec Ideal S1x64 .f32) y = (V c main_v43 : S1x64.Idx → Ideal .f32) y := by
  obtain ⟨-, -, -, -, -, -, -, -, e40, e41, -⟩ := idx1 t
  show V c main_v43 (((cfg1.win 4).blk t).view.emb y) = _
  refine congrArg (V c main_v43) (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The layer of the arrays the region finds. -/
abbrev result1 (c : Dev nD) : S100000x64.Idx → Ideal .f32 :=
  Cert.Sage.layer (V c main_v40 : S100000x64.Idx → Ideal .f32) (V c main_v28 : S100000x64.Idx → Ideal .f32)
    (V c main_v41 : S64x64.Idx → Ideal .f32) (V c main_v42 : S64x64.Idx → Ideal .f32) (V c main_v43 : S1x64.Idx → Ideal .f32)

/-- What point t writes back is block t of the layer of the arrays the region finds. -/
theorem flushed1_eq (c : Dev nD) (t : Fin cfg1.N) :
    (dat1 V c).flushed 5 t = ((cfg1.win 5).blk t).view.read (Elt Ideal) (result1 V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  obtain ⟨-, -, -, -, -, -, -, -, -, -, e50, e51⟩ := idx1 t
  have hN : cfg1.N = 20 := N_1
  have ht : t.val < cfg1.N := t.isLt
  have hp : p.val < 5000 := p.isLt
  let i : Fin 100000 := ⟨t.val * 5000 + p.val, by omega⟩
  have hemb : ((cfg1.win 5).blk t).view.emb (ix2 p q) = (ix2 i q : S100000x64.Idx) := by
    funext a; apply Fin.ext
    match a with
    | ⟨0, _⟩ => show win1_5.index t (0 : Fin 2) * 5000 + 1 * p.val = t.val * 5000 + p.val; omega
    | ⟨1, _⟩ => show win1_5.index t (1 : Fin 2) * 64 + 1 * q.val = q.val; omega
  show k1_pay1 (iblk1 V c 0 t) (iblk1 V c 1 t) (iblk1 V c 2 t) (iblk1 V c 3 t) (iblk1 V c 4 t) (ix2 p q)
    = result1 V c (((cfg1.win 5).blk t).view.emb (ix2 p q))
  rw [hemb]
  show _ = Cert.Sage.layer _ _ _ _ _ (ix2 i q)
  rw [Cert.Sage.layer_apply, pay1_apply, whole1_4]
  refine congrArg₂ (fun s u => max (s + u + (V c main_v43 : S1x64.Idx → Ideal .f32) (ix2 (0 : Fin 1) q)) Cert.Dense.z) ?_ ?_
  · exact Finset.sum_congr rfl fun k _ => by rw [rows1_0 V c t p k i rfl, whole1_2]
  · exact Finset.sum_congr rfl fun k _ => by rw [rows1_1 V c t p k i rfl, whole1_3]

/-- An index of the output is in point t's block iff its row is among rows 5000·t … 5000·t + 4999. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v44).slice (win1_5.rect t)).set ↔ _
  rw [View.set_slice_whole, Rect.mem_set_unit]
  exact Iff.rfl

/-- After the region the output array holds the layer of the arrays the region found: the twenty blocks tile it. -/
theorem final1 (c : Dev nD) : (dat1 V c).arrAt 5 cfg1.N = result1 V c :=
  (dat1 V c).arrAt_eq_of_cover 5 (result1 V c) (fun t _ => flushed1_eq V c t) fun i => by
    have hN : cfg1.N = 20 := N_1
    have h0 : (i 0).val < 100000 := (i 0).isLt
    have h1 : (i 1).val < 64 := (i 1).isLt
    let t : Fin cfg1.N := ⟨(i 0).val / 5000, by omega⟩
    obtain ⟨-, -, -, -, -, -, -, -, -, -, e50, e51⟩ := idx1 t
    have ht : t.val = (i 0).val / 5000 := rfl
    refine ⟨t, flush1_5 t, ?_⟩
    rw [mem_blk1]
    intro a
    match a with
    | ⟨0, _⟩ => show win1_5.index t (0 : Fin 2) * 5000 ≤ (i 0).val ∧ (i 0).val < win1_5.index t (0 : Fin 2) * 5000 + 5000; omega
    | ⟨1, _⟩ => show win1_5.index t (1 : Fin 2) * 64 ≤ (i 1).val ∧ (i 1).val < win1_5.index t (1 : Fin 2) * 64 + 64; omega

end Region1

end Cert.KernelIdeal.Hand

end
-- ==== Proof.KernelIdealRun.lean ====
/-
  The idealized kernel's run with every buffer's final contents kept.

  The program is four segments: host operations, the first layer's region, host operations, the second layer's
  region.  Each segment rewrites the TensorCore's buffer contents, so the contents at the end are the launch contents
  folded through the four rewrites (`Gen.W4`).  Every weakly fair execution terminates without a fault, and every
  final state holds those folded contents at every unscoped buffer: in particular at the result and at the arguments.
-/
import proofs.«177526_j64828236366583_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    launch contents folded through the four segments. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result buffer is among the buffers the run keeps. -/
theorem out_mem : Proc.devRef .tc main_v44 ∈ Pipeline.ucRefs τ sig := mem_uc main_v44 (by decide)

end Cert.KernelIdeal.Hand

end
-- ==== Proof.KernelIdealValue.lean ====
/-
  What the idealized kernel returns, as one function of its arguments.

  The host operations around the two regions compute, from the edge list, each edge's source and destination
  node, the number of edges arriving at each node, and the reciprocal of max(count, 1); then, for a feature
  array h, the sum over arriving edges of the source node's row of h, scaled row by row by that reciprocal
  (`meanK`).  A region then leaves relu(mean · Wlᵀ + h · Wrᵀ + b) in its output (`Cert.Sage.layer`, by the
  region's own value).  The second stretch of host operations and the second region do the same with the first
  region's output in place of the node features.  Reading the fold of the four segments at the result buffer
  gives the two layers composed.
-/
import proofs.«177526_j64828236366583_1_alg».proof.Proof.KernelIdealRegion
import proofs.«177526_j64828236366583_1_alg».proof.Proof.KernelIdealRun
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

/-! ## The host operations' terms -/

/-- Each edge's source node: row 0 of the edge list. -/
def srcOf (e : IVec S2x1600000 32) : IVec S1600000 32 :=
  shapeCast _ (extractStridedSlice S1x1600000 ![0, 0] e slices_S2x1600000_S1x1600000_0_0) shapeCasts_S1x1600000_S1600000

/-- Each edge's destination node: row 1 of the edge list. -/
def dstOf (e : IVec S2x1600000 32) : IVec S1600000 32 :=
  shapeCast _ (extractStridedSlice S1x1600000 ![1, 0] e slices_S2x1600000_S1x1600000_1_0) shapeCasts_S1x1600000_S1600000

/-- The source node as a row index: a negative index counts from the end. -/
def srcRow (e : IVec S2x1600000 32) : IVec S1600000x1 32 :=
  broadcastInDim S1600000x1 ![0] bcast_S1600000_S1600000x1_0
    (select (cmpi .slt (srcOf e) (broadcastInDim S1600000 ![] bcast_S_S1600000 (constantI S_ 32 0#32)))
      (addi (srcOf e) (broadcastInDim S1600000 ![] bcast_S_S1600000 (constantI S_ 32 100000#32))) (srcOf e))

/-- The destination node as a scatter index. -/
def dstRow (e : IVec S2x1600000 32) : IVec S1600000x1 32 :=
  broadcastInDim S1600000x1 ![0] bcast_S1600000_S1600000x1_0 (dstOf e)

/-- The number of edges arriving at each node. -/
def cnt (e : IVec S2x1600000 32) : FVec Ideal S100000 .f32 :=
  Host.scatterAdd (F := Ideal) scatter_S100000_S1600000x1_S1600000_n_0_0_1
    (broadcastInDim S100000 ![] bcast_S_S100000 (constant (F := Ideal) S_ .f32 0x00000000#32)) (dstRow e)
    (broadcastInDim S1600000 ![] bcast_S_S1600000 (constant (F := Ideal) S_ .f32 0x3F800000#32))

/-- The reciprocal of max(count, 1), as a column. -/
def invCol (e : IVec S2x1600000 32) : FVec Ideal S100000x1 .f32 :=
  broadcastInDim S100000x1 ![0] bcast_S100000_S100000x1_0
    (Host.divf (broadcastInDim S100000 ![] bcast_S_S100000 (constant (F := Ideal) S_ .f32 0x3F800000#32))
      (maximumf (cnt e) (broadcastInDim S100000 ![] bcast_S_S100000 (constant (F := Ideal) S_ .f32 0x3F800000#32))))

/-- For each node, the sum over arriving edges of the source node's row of `h`. -/
def agg (e : IVec S2x1600000 32) (h : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (dstRow e)
    (Host.gather gather_S100000x64_S1600000x1_S1600000x64_1_0_n_n_0_1_164 h (srcRow e))

/-- The neighbour sums scaled by the reciprocal of max(count, 1). -/
def meanK (e : IVec S2x1600000 32) (h : FVec Ideal S100000x64 .f32) : FVec Ideal S100000x64 .f32 :=
  mulf (agg e h) (broadcastInDim S100000x64 ![0, 1] bcast_S100000x1_S100000x64_0_1 (invCol e))

/-- One layer as the kernel computes it. -/
def kLayer (e : IVec S2x1600000 32) (h : FVec Ideal S100000x64 .f32) (Wl : FVec Ideal S64x64 .f32) (b : FVec Ideal S64 .f32)
    (Wr : FVec Ideal S64x64 .f32) : FVec Ideal S100000x64 .f32 :=
  Cert.Sage.layer (meanK e h) h (transpose S64x64 [1, 0] Wl transposes_S64x64_S64x64_1_0)
    (transpose S64x64 [1, 0] Wr transposes_S64x64_S64x64_1_0) (shapeCast S1x64 b shapeCasts_S64_S1x64)

variable (m : (ℓ : Loc nD τ sig) → Buf (Elt Ideal) ℓ) (ρ : Dev nD → PrngReg)

/-! ## The contents the first region is entered with -/

theorem W1_v1 (c : Dev nD) : (W1 m ρ c (Proc.devRef .tc main_v1) : IVec S1600000 32) = srcOf (m ((c : Thread nD τ).loc main_arg1)) := by
  show StableHlo.after hostOps0 (W0 m ρ c) (Proc.devRef .tc main_v1) = _
  after_results_simp <;> rfl

theorem W1_v3 (c : Dev nD) : (W1 m ρ c (Proc.devRef .tc main_v3) : IVec S1600000 32) = dstOf (m ((c : Thread nD τ).loc main_arg1)) := by
  show StableHlo.after hostOps0 (W0 m ρ c) (Proc.devRef .tc main_v3) = _
  after_results_simp <;> rfl

theorem W1_v12 (c : Dev nD) : (W1 m ρ c (Proc.devRef .tc main_v12) : FVec Ideal S100000x1 .f32) = invCol (m ((c : Thread nD τ).loc main_arg1)) := by
  show StableHlo.after hostOps0 (W0 m ρ c) (Proc.devRef .tc main_v12) = _
  after_results_simp <;> rfl

theorem W1_v24 (c : Dev nD) : (W1 m ρ c (Proc.devRef .tc main_v24) : FVec Ideal S100000x64 .f32)
    = meanK (m ((c : Thread nD τ).loc main_arg1)) (m ((c : Thread nD τ).loc main_arg0)) := by
  show StableHlo.after hostOps0 (W0 m ρ c) (Proc.devRef .tc main_v24) = _
  after_results_simp <;> rfl

theorem W1_v25 (c : Dev nD) : (W1 m ρ c (Proc.devRef .tc main_v25) : FVec Ideal S64x64 .f32)
    = transpose S64x64 [1, 0] (m ((c : Thread nD τ).loc main_arg2)) transposes_S64x64_S64x64_1_0 := by
  show StableHlo.after hostOps0 (W0 m ρ c) (Proc.devRef .tc main_v25) = _
  after_results_simp <;> rfl

theorem W1_v26 (c : Dev nD) : (W1 m ρ c (Proc.devRef .tc main_v26) : FVec Ideal S64x64 .f32)
    = transpose S64x64 [1, 0] (m ((c : Thread nD τ).loc main_arg4)) transposes_S64x64_S64x64_1_0 := by
  show StableHlo.after hostOps0 (W0 m ρ c) (Proc.devRef .tc main_v26) = _
  after_results_simp <;> rfl

theorem W1_v27 (c : Dev nD) : (W1 m ρ c (Proc.devRef .tc main_v27) : FVec Ideal S1x64 .f32)
    = shapeCast S1x64 (m ((c : Thread nD τ).loc main_arg3)) shapeCasts_S64_S1x64 := by
  show StableHlo.after hostOps0 (W0 m ρ c) (Proc.devRef .tc main_v27) = _
  after_results_simp <;> rfl

theorem W1_arg (c : Dev nD) (a : Ref sig .tc) (ha : a = main_arg0 ∨ a = main_arg5 ∨ a = main_arg6 ∨ a = main_arg7) :
    W1 m ρ c (Proc.devRef .tc a) = m ((c : Thread nD τ).loc a) := by
  show StableHlo.after hostOps0 (W0 m ρ c) (Proc.devRef .tc a) = _
  rcases ha with rfl | rfl | rfl | rfl <;> (after_results_simp <;> rfl)

/-! ## The first region's output, and what the second region is entered with -/

/-- The first layer's output. -/
def hidden (c : Dev nD) : FVec Ideal S100000x64 .f32 :=
  kLayer (m ((c : Thread nD τ).loc main_arg1)) (m ((c : Thread nD τ).loc main_arg0)) (m ((c : Thread nD τ).loc main_arg2)) (m ((c : Thread nD τ).loc main_arg3)) (m ((c : Thread nD τ).loc main_arg4))

/-- The kernel's result: the second layer of the first layer's output. -/
def out (c : Dev nD) : FVec Ideal S100000x64 .f32 :=
  kLayer (m ((c : Thread nD τ).loc main_arg1)) (hidden m c) (m ((c : Thread nD τ).loc main_arg5)) (m ((c : Thread nD τ).loc main_arg6)) (m ((c : Thread nD τ).loc main_arg7))

theorem W2_v28 (c : Dev nD) : (W2 m ρ c (Proc.devRef .tc main_v28) : FVec Ideal S100000x64 .f32) = hidden m c := by
  refine (W2_arr m ρ c 5).trans ((final0 (V1 m ρ) c).trans ?_)
  show Cert.Sage.layer (W1 m ρ c (Proc.devRef .tc main_v24) : FVec Ideal S100000x64 .f32) (W1 m ρ c (Proc.devRef .tc main_arg0) : FVec Ideal S100000x64 .f32)
    (W1 m ρ c (Proc.devRef .tc main_v25) : FVec Ideal S64x64 .f32) (W1 m ρ c (Proc.devRef .tc main_v26) : FVec Ideal S64x64 .f32)
    (W1 m ρ c (Proc.devRef .tc main_v27) : FVec Ideal S1x64 .f32) = _
  rw [W1_v24, W1_arg m ρ c main_arg0 (.inl rfl), W1_v25, W1_v26, W1_v27]
  rfl

theorem W3_v40 (c : Dev nD) : (W3 m ρ c (Proc.devRef .tc main_v40) : FVec Ideal S100000x64 .f32)
    = meanK (m ((c : Thread nD τ).loc main_arg1)) (hidden m c) := by
  show StableHlo.after hostOps1 (W2 m ρ c) (Proc.devRef .tc main_v40) = _
  after_results_simp
  rw [W2_of_ne m ρ c main_v1 (by decide), W2_of_ne m ρ c main_v3 (by decide), W2_of_ne m ρ c main_v12 (by decide),
    W1_v1, W1_v3, W1_v12, W2_v28]
  rfl

theorem W3_v28 (c : Dev nD) : (W3 m ρ c (Proc.devRef .tc main_v28) : FVec Ideal S100000x64 .f32) = hidden m c := by
  refine Eq.trans ?_ (W2_v28 m ρ c)
  show StableHlo.after hostOps1 (W2 m ρ c) (Proc.devRef .tc main_v28) = _
  after_results_simp <;> rfl

theorem W3_v41 (c : Dev nD) : (W3 m ρ c (Proc.devRef .tc main_v41) : FVec Ideal S64x64 .f32)
    = transpose S64x64 [1, 0] (m ((c : Thread nD τ).loc main_arg5)) transposes_S64x64_S64x64_1_0 := by
  show StableHlo.after hostOps1 (W2 m ρ c) (Proc.devRef .tc main_v41) = _
  after_results_simp
  rw [W2_of_ne m ρ c main_arg5 (by decide), W1_arg m ρ c main_arg5 (.inr (.inl rfl))]

theorem W3_v42 (c : Dev nD) : (W3 m ρ c (Proc.devRef .tc main_v42) : FVec Ideal S64x64 .f32)
    = transpose S64x64 [1, 0] (m ((c : Thread nD τ).loc main_arg7)) transposes_S64x64_S64x64_1_0 := by
  show StableHlo.after hostOps1 (W2 m ρ c) (Proc.devRef .tc main_v42) = _
  after_results_simp
  rw [W2_of_ne m ρ c main_arg7 (by decide), W1_arg m ρ c main_arg7 (.inr (.inr (.inr rfl)))]

theorem W3_v43 (c : Dev nD) : (W3 m ρ c (Proc.devRef .tc main_v43) : FVec Ideal S1x64 .f32)
    = shapeCast S1x64 (m ((c : Thread nD τ).loc main_arg6)) shapeCasts_S64_S1x64 := by
  show StableHlo.after hostOps1 (W2 m ρ c) (Proc.devRef .tc main_v43) = _
  after_results_simp
  rw [W2_of_ne m ρ c main_arg6 (by decide), W1_arg m ρ c main_arg6 (.inr (.inr (.inl rfl)))]
  rfl

/-! ## The result buffer at the end -/

theorem W4_v44 (c : Dev nD) : (W4 m ρ c (Proc.devRef .tc main_v44) : FVec Ideal S100000x64 .f32) = out m c := by
  refine (W4_arr m ρ c 5).trans ((final1 (V3 m ρ) c).trans ?_)
  show Cert.Sage.layer (W3 m ρ c (Proc.devRef .tc main_v40) : FVec Ideal S100000x64 .f32) (W3 m ρ c (Proc.devRef .tc main_v28) : FVec Ideal S100000x64 .f32)
    (W3 m ρ c (Proc.devRef .tc main_v41) : FVec Ideal S64x64 .f32) (W3 m ρ c (Proc.devRef .tc main_v42) : FVec Ideal S64x64 .f32)
    (W3 m ρ c (Proc.devRef .tc main_v43) : FVec Ideal S1x64 .f32) = _
  rw [W3_v40, W3_v28, W3_v41, W3_v42, W3_v43]
  rfl

/-- The run, read: the result array at the two layers composed, the arguments unchanged. -/
theorem run : θ_run defs (onTc (τ := τ) (main (F := Ideal))) ⟨m, fun _ => 0, ρ⟩ (fun r => ∀ c : Dev nD,
      r.2.mem ((c.tc : Thread nD τ).loc main_v44) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ out_mem).trans (W4_v44 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (run_held m ρ)

end Cert.KernelIdeal.Hand

end
-- ==== Proof.ReferenceValue.lean ====
/-
  What the idealized reference returns, as one function of its arguments.

  The reference computes each layer over whole arrays: the sum over arriving edges of the source node's row of h,
  divided row by row by max(count, 1), times Wlᵀ, plus the bias on every row, plus h · Wrᵀ, clipped at zero.
  Its result is two such layers composed.
-/
import proofs.«177526_j64828236366583_1_alg».proof.Proof.Gen.ReferenceIdeal.Run
import Idealize.ShloMosaic.PureOps.Ideal

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen

/-- Each edge's source node: row 0 of the edge list. -/
def srcOf (e : IVec S2x1600000 32) : IVec S1600000 32 :=
  shapeCast _ (extractStridedSlice S1x1600000 ![0, 0] e slices_S2x1600000_S1x1600000_0_0) shapeCasts_S1x1600000_S1600000

/-- Each edge's destination node: row 1 of the edge list. -/
def dstOf (e : IVec S2x1600000 32) : IVec S1600000 32 :=
  shapeCast _ (extractStridedSlice S1x1600000 ![1, 0] e slices_S2x1600000_S1x1600000_1_0) shapeCasts_S1x1600000_S1600000

/-- The source node as a row index: a negative index counts from the end. -/
def srcRow (e : IVec S2x1600000 32) : IVec S1600000x1 32 :=
  broadcastInDim S1600000x1 ![0] bcast_S1600000_S1600000x1_0
    (select (cmpi .slt (srcOf e) (broadcastInDim S1600000 ![] bcast_S_S1600000 (constantI S_ 32 0#32)))
      (addi (srcOf e) (broadcastInDim S1600000 ![] bcast_S_S1600000 (constantI S_ 32 100000#32))) (srcOf e))

/-- The destination node as a scatter index. -/
def dstRow (e : IVec S2x1600000 32) : IVec S1600000x1 32 :=
  broadcastInDim S1600000x1 ![0] bcast_S1600000_S1600000x1_0 (dstOf e)

/-- The number of edges arriving at each node. -/
def cnt (e : IVec S2x1600000 32) : FVec Ideal S100000 .f32 :=
  Host.scatterAdd (F := Ideal) scatter_S100000_S1600000x1_S1600000_n_0_0_1
    (broadcastInDim S100000 ![] bcast_S_S100000 (constant (F := Ideal) S_ .f32 0x00000000#32)) (dstRow e)
    (broadcastInDim S1600000 ![] bcast_S_S1600000 (constant (F := Ideal) S_ .f32 0x3F800000#32))

/-- For each node, the sum over arriving edges of the source node's row of `h`. -/
def agg (e : IVec S2x1600000 32) (h : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (dstRow e)
    (Host.gather gather_S100000x64_S1600000x1_S1600000x64_1_0_n_n_0_1_164 h (srcRow e))

/-- The neighbour sums divided by max(count, 1). -/
def meanR (e : IVec S2x1600000 32) (h : FVec Ideal S100000x64 .f32) : FVec Ideal S100000x64 .f32 :=
  Host.divf (agg e h) (broadcastInDim S100000x64 ![0, 1] bcast_S100000x1_S100000x64_0_1
    (broadcastInDim S100000x1 ![0] bcast_S100000_S100000x1_0
      (maximumf (cnt e) (broadcastInDim S100000 ![] bcast_S_S100000 (constant (F := Ideal) S_ .f32 0x3F800000#32)))))

/-- One layer as the reference computes it. -/
def rLayer (e : IVec S2x1600000 32) (h : FVec Ideal S100000x64 .f32) (Wl : FVec Ideal S64x64 .f32) (b : FVec Ideal S64 .f32)
    (Wr : FVec Ideal S64x64 .f32) : FVec Ideal S100000x64 .f32 :=
  maximumf (addf (addf (Host.dotGeneral (F := Ideal) dot_S100000x64_S64x64_S100000x64_1_0_0_1_n_n none (meanR e h)
          (transpose S64x64 [1, 0] Wl transposes_S64x64_S64x64_1_0))
        (broadcastInDim S100000x64 ![0, 1] bcast_S1x64_S100000x64_0_1 (broadcastInDim S1x64 ![1] bcast_S64_S1x64_1 b)))
      (Host.dotGeneral (F := Ideal) dot_S100000x64_S64x64_S100000x64_1_0_0_1_n_n none h (transpose S64x64 [1, 0] Wr transposes_S64x64_S64x64_1_0)))
    (broadcastInDim S100000x64 ![] bcast_S_S100000x64 (constant (F := Ideal) S_ .f32 0x00000000#32))

/-- The reference's result is two layers composed. -/
theorem res_eq (m : (ℓ : Loc nD τ sig) → Buf (Elt Ideal) ℓ) (c : Dev nD) :
    Cert.ReferenceIdeal.Value.res_main_v59 m c
      = rLayer (m ((c.tc : Thread nD τ).loc main_arg1))
          (rLayer (m ((c.tc : Thread nD τ).loc main_arg1)) (m ((c.tc : Thread nD τ).loc main_arg0))
            (m ((c.tc : Thread nD τ).loc main_arg2)) (m ((c.tc : Thread nD τ).loc main_arg3)) (m ((c.tc : Thread nD τ).loc main_arg4)))
          (m ((c.tc : Thread nD τ).loc main_arg5)) (m ((c.tc : Thread nD τ).loc main_arg6)) (m ((c.tc : Thread nD τ).loc main_arg7)) := by
  unfold Cert.ReferenceIdeal.Value.res_main_v59
  rfl

end Cert.ReferenceIdeal.Hand

end
-- ==== Proof.lean ====
/-
  A two-layer mean-aggregating graph network: a kernel against its whole-array reference, on the extended reals.

  Both programs compute, twice, h ↦ relu(mean(h) · Wlᵀ + b + h · Wrᵀ), where mean(h) at node i is the sum of the rows of
  h at the sources of the edges arriving at i, divided by max(number of such edges, 1).  The kernel forms the
  reciprocal 1 / max(count, 1) once and multiplies the sums by it; it runs the dense part of each layer block of rows by
  block of rows, two matrix products into zero accumulators added before the bias.  The reference divides the sums and adds
  the bias between the two products.

  The two agree for every input, finite or not.  The divisor max(count, 1) is at least 1, hence not zero, and for a divisor
  that is not zero the product with its reciprocal is the quotient on every extended real.  Addition of extended reals
  is commutative and associative, so the three summands may be added in either order.  Rounding the matrix products'
  operands to a shorter format is the identity on the extended reals, and each block of the kernel's output depends
  on its own rows only, so the twenty blocks of a region are one function of the whole arrays.  The gathers and
  scatter-adds are the same operations of the same operands in both programs and are never opened.

  The kernel's value is read off the run of its four segments (host operations, region, host operations, region); the
  reference's off its straight line of host operations.  No ideal-pass rewrite was made, so the idealized kernel is
  the kernel's own text and there is nothing further to preserve.
-/
import proofs.«177526_j64828236366583_1_alg».proof.Defs
import proofs.«177526_j64828236366583_1_alg».proof.Proof.Gen.Kernel
import proofs.«177526_j64828236366583_1_alg».proof.Proof.Gen.Kernel.Frame
import proofs.«177526_j64828236366583_1_alg».proof.Proof.Gen.KernelIdeal
import proofs.«177526_j64828236366583_1_alg».proof.Proof.Gen.KernelIdeal.Frame
import proofs.«177526_j64828236366583_1_alg».proof.Proof.Gen.ReferenceIdeal
import proofs.«177526_j64828236366583_1_alg».proof.Proof.Gen.ReferenceIdeal.Run
import proofs.«177526_j64828236366583_1_alg».proof.Proof.Gen.Pre_finite_inputs
import proofs.«177526_j64828236366583_1_alg».proof.Proof.LibSageLayer
import proofs.«177526_j64828236366583_1_alg».proof.Proof.KernelIdealValue
import proofs.«177526_j64828236366583_1_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem

/-- The reference's matrix products contract the left operand's columns with the right operand's rows. -/
theorem plainR : Cert.RowOps.IsPlain Cert.ReferenceIdeal.dot_S100000x64_S64x64_S100000x64_1_0_0_1_n_n :=
  ⟨rfl, rfl, rfl, rfl, rfl, rfl⟩

/-- One layer, the kernel's way and the reference's way, is one function of the edge list, the features, the weights and the
    bias: the product with the reciprocal of max(count, 1) is the quotient, and the three summands commute. -/
theorem layer_eq (e : IVec ⟨2, ![2, 1600000]⟩ 32) (h : FVec Ideal ⟨2, ![100000, 64]⟩ .f32) (Wl : FVec Ideal ⟨2, ![64, 64]⟩ .f32)
    (b : FVec Ideal ⟨1, ![64]⟩ .f32) (Wr : FVec Ideal ⟨2, ![64, 64]⟩ .f32) :
    Cert.KernelIdeal.Hand.kLayer e h Wl b Wr = Cert.ReferenceIdeal.Hand.rLayer e h Wl b Wr := by
  unfold Cert.KernelIdeal.Hand.kLayer Cert.KernelIdeal.Hand.meanK Cert.KernelIdeal.Hand.invCol
  rw [Cert.Sage.mean_eq]
  exact Cert.Sage.hostLayer_eq plainR _ h _ _ b _ _ _ _

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the two layers composed at their result. -/
theorem algebraic : Cert.algebraic_KernelIdeal_ReferenceIdeal := by
  intro m ρ m' ρ' _ hagree
  refine ⟨fun c => Cert.KernelIdeal.Hand.out m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Hand.out m c
  obtain ⟨a0, a1, a2, a3, a4, a5, a6, a7⟩ := hagree c
  rw [Cert.ReferenceIdeal.Hand.res_eq, a0, a1, a2, a3, a4, a5, a6, a7]
  unfold Cert.KernelIdeal.Hand.out Cert.KernelIdeal.Hand.hidden
  rw [layer_eq, layer_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
